-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v52_0)) (v1 : (c : Dev Cert.KernelIdeal.nD) → Buf (Elt Ideal) ((c.tc : Thread Cert.KernelIdeal.nD Cert.KernelIdeal.τ).loc Cert.KernelIdeal.main_v52_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52_0) = v0 c
          ∧ r.2.mem ((c.tc : Thread Cert.KernelIdeal.nD Cert.KernelIdeal.τ).loc Cert.KernelIdeal.main_v52_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S128x128 .f32) (main_v13 : IVec S_ 1) (main_v16 : IVec S800000 1) : IVec S_ 1 :=
  let main_c_5 : IVec S_ 1 := constantI S_ 1 1#1
  let main_v17 : IVec S_ 1 := (fun x v => Host.reduce IntOp.andi x v reducesTo_S800000_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  main_v23

def fn {F : FTy → Type} [FloatOps F] (main_arg0 : FVec F S50000x128 .f32) (main_arg1 : FVec F S50000x128 .f32) (main_arg2 : FVec F S800000 .f32) (main_arg3 : FVec F S800000 .f32) (main_arg4 : FVec F S128x128 .f32) (main_arg5 : IVec S800000 32) (main_arg6 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S800000 .f32 := Host.absf main_arg2
  let main_cst_2 : FVec F S_ .f32 := constant S_ .f32 0x7F800000#32
  let main_v10 : FVec F S800000 .f32 := broadcastInDim S800000 ![] bcast_S_S800000 main_cst_2
  let main_v11 : IVec S800000 1 := cmpf .olt main_v9 main_v10
  let main_c_3 : IVec S_ 1 := constantI S_ 1 1#1
  let main_v12 : IVec S_ 1 := (fun x v => Host.reduce IntOp.andi x v reducesTo_S800000_S_d0 h_S_) main_v11 main_c_3
  let main_v13 : IVec S_ 1 := andi main_v8 main_v12
  let main_v14 : FVec F S800000 .f32 := Host.absf main_arg3
  let main_cst_4 : FVec F S_ .f32 := constant S_ .f32 0x7F800000#32
  let main_v15 : FVec F S800000 .f32 := broadcastInDim S800000 ![] bcast_S_S800000 main_cst_4
  let main_v16 : IVec S800000 1 := cmpf .olt main_v14 main_v15
  fn_part1 (F := F) main_arg4 main_v13 main_v16
-- ==== Kernel.lean ====
abbrev S50000x128 : Shape := ⟨2, ![50000, 128]⟩
abbrev S800000 : Shape := ⟨1, ![800000]⟩
abbrev S128x128 : Shape := ⟨2, ![128, 128]⟩
abbrev S800000x1 : Shape := ⟨2, ![800000, 1]⟩
abbrev S_ : Shape := ⟨0, ![]⟩
abbrev S800000x128 : Shape := ⟨2, ![800000, 128]⟩
abbrev S2000x128 : Shape := ⟨2, ![2000, 128]⟩

abbrev nBuf : Space → Nat
  | .hbm => 73
  | .vmem => 17
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S800000, .f32⟩
  | .hbm, ⟨3, _⟩ => ⟨S800000, .f32⟩
  | .hbm, ⟨4, _⟩ => ⟨S128x128, .f32⟩
  | .hbm, ⟨5, _⟩ => ⟨S800000, .i32⟩
  | .hbm, ⟨6, _⟩ => ⟨S800000, .i32⟩
  | .hbm, ⟨7, _⟩ => ⟨S800000x1, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x128, .f32⟩
  | .hbm, ⟨17, _⟩ => ⟨S800000x128, .f32⟩
  | .hbm, ⟨18, _⟩ => ⟨S800000x128, .f32⟩
  | .hbm, ⟨19, _⟩ => ⟨S_, .f32⟩
  | .hbm, ⟨20, _⟩ => ⟨S50000x128, .f32⟩
  | .hbm, ⟨21, _⟩ => ⟨S800000x1, .i32⟩
  | .hbm, ⟨22, _⟩ => ⟨S50000x128, .f32⟩
  | .hbm, ⟨23, _⟩ => ⟨S800000x1, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x128, .f32⟩
  | .hbm, ⟨33, _⟩ => ⟨S800000x128, .f32⟩
  | .hbm, ⟨34, _⟩ => ⟨S800000x128, .f32⟩
  | .hbm, ⟨35, _⟩ => ⟨S_, .f32⟩
  | .hbm, ⟨36, _⟩ => ⟨S50000x128, .f32⟩
  | .hbm, ⟨37, _⟩ => ⟨S800000x1, .i32⟩
  | .hbm, ⟨38, _⟩ => ⟨S50000x128, .f32⟩
  | .hbm, ⟨39, _⟩ => ⟨S800000x1, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x128, .f32⟩
  | .hbm, ⟨49, _⟩ => ⟨S800000x128, .f32⟩
  | .hbm, ⟨50, _⟩ => ⟨S800000x128, .f32⟩
  | .hbm, ⟨51, _⟩ => ⟨S_, .f32⟩
  | .hbm, ⟨52, _⟩ => ⟨S50000x128, .f32⟩
  | .hbm, ⟨53, _⟩ => ⟨S800000x1, .i32⟩
  | .hbm, ⟨54, _⟩ => ⟨S50000x128, .f32⟩
  | .hbm, ⟨55, _⟩ => ⟨S800000x1, .f32⟩
  | .hbm, ⟨56, _⟩ => ⟨S_, .i32⟩
  | .hbm, ⟨57, _⟩ => ⟨S800000, .i32⟩
  | .hbm, ⟨58, _⟩ => ⟨S800000, .i1⟩
  | .hbm, ⟨59, _⟩ => ⟨S_, .i32⟩
  | .hbm, ⟨60, _⟩ => ⟨S800000, .i32⟩
  | .hbm, ⟨61, _⟩ => ⟨S800000, .i32⟩
  | .hbm, ⟨62, _⟩ => ⟨S800000, .i32⟩
  | .hbm, ⟨63, _⟩ => ⟨S800000x1, .i32⟩
  | .hbm, ⟨64, _⟩ => ⟨S800000x128, .f32⟩
  | .hbm, ⟨65, _⟩ => ⟨S800000x128, .f32⟩
  | .hbm, ⟨66, _⟩ => ⟨S800000x128, .f32⟩
  | .hbm, ⟨67, _⟩ => ⟨S_, .f32⟩
  | .hbm, ⟨68, _⟩ => ⟨S50000x128, .f32⟩
  | .hbm, ⟨69, _⟩ => ⟨S800000x1, .i32⟩
  | .hbm, ⟨70, _⟩ => ⟨S50000x128, .f32⟩
  | .hbm, ⟨71, _⟩ => ⟨S50000x128, .f32⟩
  | .hbm, ⟨72, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_1 : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_4 : Ref sig .tc := ⟨.hbm, 40, rfl⟩
abbrev main_v27 : Ref sig .tc := ⟨.hbm, 41, rfl⟩
abbrev main_v28 : Ref sig .tc := ⟨.hbm, 42, rfl⟩
abbrev main_c_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_c_7 : Ref sig .tc := ⟨.hbm, 56, rfl⟩
abbrev main_v40 : Ref sig .tc := ⟨.hbm, 57, rfl⟩
abbrev main_v41 : Ref sig .tc := ⟨.hbm, 58, rfl⟩
abbrev main_c_8 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_9 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52_0 : Ref sig .tc := ⟨.hbm, 71, rfl⟩
abbrev main_v52_1 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S50000x128.size a
  hwx0_4 : ∀ i : grid0.Coords, EltTy.bits .f32 = 32 ∨ (Rect.block (s := S50000x128) S2000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S50000x128.size a
  hwx0_7 : ∀ i : grid0.Coords, EltTy.bits .f32 = 32 ∨ (Rect.block (s := S50000x128) S2000x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x128.size a ≤ S50000x128.size a
  hwx0_8 : ∀ i : grid0.Coords, EltTy.bits .f32 = 32 ∨ (Rect.block (s := S50000x128) S2000x128.size (cc0_transform_8 i) (hinb0_8 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v12) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v38) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v51) S2000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg0) S2000x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg1) S2000x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v52_0) S2000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v52_1) S2000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S800000x1 : Shape := ⟨2, ![800000, 1]⟩
abbrev S_ : Shape := ⟨0, ![]⟩
abbrev S800000x128 : Shape := ⟨2, ![800000, 128]⟩

abbrev nBuf : Space → Nat
  | .hbm => 77
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S800000, .f32⟩
  | .hbm, ⟨3, _⟩ => ⟨S800000, .f32⟩
  | .hbm, ⟨4, _⟩ => ⟨S128x128, .f32⟩
  | .hbm, ⟨5, _⟩ => ⟨S800000, .i32⟩
  | .hbm, ⟨6, _⟩ => ⟨S800000, .i32⟩
  | .hbm, ⟨7, _⟩ => ⟨S800000x1, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x128, .f32⟩
  | .hbm, ⟨17, _⟩ => ⟨S800000x128, .f32⟩
  | .hbm, ⟨18, _⟩ => ⟨S800000x128, .f32⟩
  | .hbm, ⟨19, _⟩ => ⟨S_, .f32⟩
  | .hbm, ⟨20, _⟩ => ⟨S50000x128, .f32⟩
  | .hbm, ⟨21, _⟩ => ⟨S800000x1, .i32⟩
  | .hbm, ⟨22, _⟩ => ⟨S50000x128, .f32⟩
  | .hbm, ⟨23, _⟩ => ⟨S800000x1, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x128, .f32⟩
  | .hbm, ⟨33, _⟩ => ⟨S800000x128, .f32⟩
  | .hbm, ⟨34, _⟩ => ⟨S800000x128, .f32⟩
  | .hbm, ⟨35, _⟩ => ⟨S_, .f32⟩
  | .hbm, ⟨36, _⟩ => ⟨S50000x128, .f32⟩
  | .hbm, ⟨37, _⟩ => ⟨S800000x1, .i32⟩
  | .hbm, ⟨38, _⟩ => ⟨S50000x128, .f32⟩
  | .hbm, ⟨39, _⟩ => ⟨S50000x128, .f32⟩
  | .hbm, ⟨40, _⟩ => ⟨S800000x1, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x128, .f32⟩
  | .hbm, ⟨50, _⟩ => ⟨S800000x128, .f32⟩
  | .hbm, ⟨51, _⟩ => ⟨S800000x128, .f32⟩
  | .hbm, ⟨52, _⟩ => ⟨S_, .f32⟩
  | .hbm, ⟨53, _⟩ => ⟨S50000x128, .f32⟩
  | .hbm, ⟨54, _⟩ => ⟨S800000x1, .i32⟩
  | .hbm, ⟨55, _⟩ => ⟨S50000x128, .f32⟩
  | .hbm, ⟨56, _⟩ => ⟨S800000x1, .f32⟩
  | .hbm, ⟨57, _⟩ => ⟨S_, .i32⟩
  | .hbm, ⟨58, _⟩ => ⟨S800000, .i32⟩
  | .hbm, ⟨59, _⟩ => ⟨S800000, .i1⟩
  | .hbm, ⟨60, _⟩ => ⟨S_, .i32⟩
  | .hbm, ⟨61, _⟩ => ⟨S800000, .i32⟩
  | .hbm, ⟨62, _⟩ => ⟨S800000, .i32⟩
  | .hbm, ⟨63, _⟩ => ⟨S800000, .i32⟩
  | .hbm, ⟨64, _⟩ => ⟨S800000x1, .i32⟩
  | .hbm, ⟨65, _⟩ => ⟨S800000x128, .f32⟩
  | .hbm, ⟨66, _⟩ => ⟨S800000x128, .f32⟩
  | .hbm, ⟨67, _⟩ => ⟨S800000x128, .f32⟩
  | .hbm, ⟨68, _⟩ => ⟨S_, .f32⟩
  | .hbm, ⟨69, _⟩ => ⟨S50000x128, .f32⟩
  | .hbm, ⟨70, _⟩ => ⟨S800000x1, .i32⟩
  | .hbm, ⟨71, _⟩ => ⟨S50000x128, .f32⟩
  | .hbm, ⟨72, _⟩ => ⟨S50000x128, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_1 : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_4 : Ref sig .tc := ⟨.hbm, 41, rfl⟩
abbrev main_v28 : Ref sig .tc := ⟨.hbm, 42, rfl⟩
abbrev main_v29 : Ref sig .tc := ⟨.hbm, 43, rfl⟩
abbrev main_c_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_c_7 : Ref sig .tc := ⟨.hbm, 57, rfl⟩
abbrev main_v41 : Ref sig .tc := ⟨.hbm, 58, rfl⟩
abbrev main_v42 : Ref sig .tc := ⟨.hbm, 59, rfl⟩
abbrev main_c_8 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_9 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.ProjectResidual.lean ====
/-
  The dense half of the layer, as one function of whole arrays.

  Let `a` be an [M, 128] array of aggregated node features, `W` the [128, 128] projection and `X` the [M, 128]
  array the layer adds back. Entry (r, e) of the layer's output is

      (∑ k < 128, a[r, k] · W[k, e]) + X[r, e]

  on the extended reals. Both channels of the complex layer have this form: the real channel with
  a = Lr·Xr − Li·Xi and X = Xr, the imaginary channel with a = Li·Xr + Lr·Xi and X = Xi (the four sparse
  products are whatever arrays they are: nothing here looks inside them).

  Rows do not interact: entry (r, e) reads row r of `a` and of `X` and nothing else of them. So the output over
  all rows, restricted to a run of consecutive rows, is the same function of those rows alone
  (`projResidual_rows`): this is why the layer may be computed block of rows by block of rows.
-/
import Idealize.ShloMosaic.Lib.ValueIdx
import Idealize.ShloMosaic.PureOps.Ideal

noncomputable section

namespace Cert.SpectralConv

open Idealize.ShloMosaic Idealize.ShloMosaic.ValueIdx

/-- Project the aggregated features `a` through `W` and add `X` back: entry (r, e) is (∑ k, a[r, k] · W[k, e]) + X[r, e]. -/
def projResidual {M : ℕ} (a : (⟨2, ![M, 128]⟩ : Shape).Idx → EReal) (W : (⟨2, ![128, 128]⟩ : Shape).Idx → EReal)
    (X : (⟨2, ![M, 128]⟩ : Shape).Idx → EReal) : (⟨2, ![M, 128]⟩ : Shape).Idx → EReal :=
  fun i => (∑ k : Fin 128, a (ix2 (i 0) k) * W (ix2 k (i 1))) + X i

/-- The same, at an entry named by its row and column. -/
theorem projResidual_ix2 {M : ℕ} (a : (⟨2, ![M, 128]⟩ : Shape).Idx → EReal) (W : (⟨2, ![128, 128]⟩ : Shape).Idx → EReal)
    (X : (⟨2, ![M, 128]⟩ : Shape).Idx → EReal) (r : Fin M) (e : Fin 128) :
    projResidual a W X (ix2 r e) = (∑ k : Fin 128, a (ix2 r k) * W (ix2 k e)) + X (ix2 r e) := rfl

/-- ROWS DO NOT INTERACT. Let `emb` place an [M, 128] block inside an [M', 128] array row by row, keeping columns
    (row r of the block is row `ρ r` of the array). Then the output computed from the block's rows alone is the
    array's output read at the block's entries. -/
theorem projResidual_rows {M M' : ℕ} (ρ : Fin M → Fin M')
    (emb : (⟨2, ![M, 128]⟩ : Shape).Idx → (⟨2, ![M', 128]⟩ : Shape).Idx)
    (hemb : ∀ (r : Fin M) (e : Fin 128), emb (ix2 r e) = ix2 (ρ r) e)
    (a : (⟨2, ![M', 128]⟩ : Shape).Idx → EReal) (W : (⟨2, ![128, 128]⟩ : Shape).Idx → EReal)
    (X : (⟨2, ![M', 128]⟩ : Shape).Idx → EReal) (y : (⟨2, ![M, 128]⟩ : Shape).Idx) :
    projResidual (fun j => a (emb j)) W (fun j => X (emb j)) y = projResidual a W X (emb y) := by
  obtain ⟨r, e, rfl⟩ : ∃ (r : Fin M) (e : Fin 128), y = ix2 r e := ⟨y 0, y 1, eq_ix2 y⟩
  show (∑ k : Fin 128, a (emb (ix2 r k)) * W (ix2 k e)) + X (emb (ix2 r e)) = projResidual a W X (emb (ix2 r e))
  rw [hemb r e, projResidual_ix2]
  simp only [hemb]

end Cert.SpectralConv

end
-- ==== Proof.ReferenceValue.lean ====
/-
  The reference computes the specification.

  The reference forms the four sparse products, combines them into the real aggregate (a difference) and the
  imaginary aggregate (a sum), multiplies each [50000, 128] aggregate by the [128, 128] weight with one matrix
  product, and adds the real (imaginary) input features back. Read at entry (r, e), the matrix product is the sum
  over k of aggregate[r, k] · weight[k, e], so each result is `projResidual` of its aggregate, the weight and
  the input added back. The aggregates themselves stay closed: they are the same arrays on the kernel's side.
-/
import proofs.«154584_j38809324486714_1_alg».proof.Proof.Gen.ReferenceIdeal.Read
import proofs.«154584_j38809324486714_1_alg».proof.Proof.ProjectResidual

noncomputable section

namespace Cert.ReferenceIdeal.RefValue

open Cert.ReferenceIdeal Cert.ReferenceIdeal.Read Cert.SpectralConv
open Idealize.ShloMosaic Idealize.ShloMosaic.ValueIdx

/-- The real channel as a function of the seven inputs: the real aggregate projected, plus the real features. -/
def resultReal (x0 x1 : (⟨S50000x128, .f32⟩ : BufTy).Contents (Elt Ideal)) (x2 x3 : (⟨S800000, .f32⟩ : BufTy).Contents (Elt Ideal))
    (x4 : (⟨S128x128, .f32⟩ : BufTy).Contents (Elt Ideal)) (x5 x6 : (⟨S800000, .i32⟩ : BufTy).Contents (Elt Ideal)) :
    (⟨S50000x128, .f32⟩ : BufTy).Contents (Elt Ideal) :=
  projResidual (val_main_v26 (F := Ideal) x0 x1 x2 x3 x5 x6) x4 x0

/-- The imaginary channel: the imaginary aggregate projected, plus the imaginary features. -/
def resultImag (x0 x1 : (⟨S50000x128, .f32⟩ : BufTy).Contents (Elt Ideal)) (x2 x3 : (⟨S800000, .f32⟩ : BufTy).Contents (Elt Ideal))
    (x4 : (⟨S128x128, .f32⟩ : BufTy).Contents (Elt Ideal)) (x5 x6 : (⟨S800000, .i32⟩ : BufTy).Contents (Elt Ideal)) :
    (⟨S50000x128, .f32⟩ : BufTy).Contents (Elt Ideal) :=
  projResidual (val_main_v53 (F := Ideal) x0 x1 x2 x3 x5 x6) x4 x1

/-- In the product's sum, the left factor of term k at entry (r, e) sits at (r, k) -/
theorem lidx54 (r : Fin 50000) (e k : Fin 128) : lidx_main_v54 (ix2 r e) k = ix2 r k :=
  funext fun a => Fin.ext (by match a with | ⟨0, _⟩ => rfl | ⟨1, _⟩ => rfl)
/-- and the right factor at (k, e). -/
theorem ridx54 (r : Fin 50000) (e k : Fin 128) : ridx_main_v54 (ix2 r e) k = ix2 k e :=
  funext fun a => Fin.ext (by match a with | ⟨0, _⟩ => rfl | ⟨1, _⟩ => rfl)
theorem lidx55 (r : Fin 50000) (e k : Fin 128) : lidx_main_v55 (ix2 r e) k = ix2 r k :=
  funext fun a => Fin.ext (by match a with | ⟨0, _⟩ => rfl | ⟨1, _⟩ => rfl)
theorem ridx55 (r : Fin 50000) (e k : Fin 128) : ridx_main_v55 (ix2 r e) k = ix2 k e :=
  funext fun a => Fin.ext (by match a with | ⟨0, _⟩ => rfl | ⟨1, _⟩ => rfl)

/-- The reference's first result is the real channel. -/
theorem real_eq (x0 x1 : (⟨S50000x128, .f32⟩ : BufTy).Contents (Elt Ideal)) (x2 x3 : (⟨S800000, .f32⟩ : BufTy).Contents (Elt Ideal))
    (x4 : (⟨S128x128, .f32⟩ : BufTy).Contents (Elt Ideal)) (x5 x6 : (⟨S800000, .i32⟩ : BufTy).Contents (Elt Ideal)) :
    val_main_v56 (F := Ideal) x0 x1 x2 x3 x4 x5 x6 = resultReal x0 x1 x2 x3 x4 x5 x6 := by
  funext i
  obtain ⟨r, e, rfl⟩ : ∃ (r : Fin 50000) (e : Fin 128), i = ix2 r e := ⟨i 0, i 1, eq_ix2 i⟩
  rw [val_main_v56_apply, val_main_v54_apply]
  simp only [lidx54, ridx54]
  rfl

/-- The reference's second result is the imaginary channel. -/
theorem imag_eq (x0 x1 : (⟨S50000x128, .f32⟩ : BufTy).Contents (Elt Ideal)) (x2 x3 : (⟨S800000, .f32⟩ : BufTy).Contents (Elt Ideal))
    (x4 : (⟨S128x128, .f32⟩ : BufTy).Contents (Elt Ideal)) (x5 x6 : (⟨S800000, .i32⟩ : BufTy).Contents (Elt Ideal)) :
    val_main_v57 (F := Ideal) x0 x1 x2 x3 x4 x5 x6 = resultImag x0 x1 x2 x3 x4 x5 x6 := by
  funext i
  obtain ⟨r, e, rfl⟩ : ∃ (r : Fin 50000) (e : Fin 128), i = ix2 r e := ⟨i 0, i 1, eq_ix2 i⟩
  rw [val_main_v57_apply, val_main_v55_apply]
  simp only [lidx55, ridx55]
  rfl

end Cert.ReferenceIdeal.RefValue

end
-- ==== Proof.LibPlainMatmul.lean ====
/-
  A plain matrix product into a zero accumulator, read at an entry, for any extents.

  For an [M, K] left operand and a [K, N] right operand contracted row by column (left axis 1 against right axis 0,
  no batch axes), on the extended reals, entry (r, e) of the product accumulated into the zero matrix is
  ∑ k < K, lhs[r, k] · rhs[k, e]: the accumulator contributes 0 + _, and the contraction's one-axis index is its one
  coordinate. The dimension record may be any record equal to the plain one (a program's own record differs from it
  only in the proof it carries), which is how the lemma is applied to a printed product.
-/
import Idealize.ShloMosaic.Lib.ValueIdx
import Idealize.ShloMosaic.PureOps.Ideal.Laws

noncomputable section

namespace Idealize.ShloMosaic.ValueIdx

open Idealize.ShloMosaic

/-- Entry (r, e) of a plain [M, K] × [K, N] product into the zero accumulator is ∑ k, lhs[r, k] · rhs[k, e]. -/
theorem matmul_plain_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (e : Fin N) :
    FloatOps.matmul d prec lhs rhs (constant ⟨2, ![M, N]⟩ .f32 0x00000000#32) (ix2 r e)
      = ∑ k : Fin K, lhs (ix2 r k) * rhs (ix2 k e) := by
  subst hd
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r e) ((contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r e) ((contrEquiv1 (DotDims.plain M K N) K rfl rfl).symm k) = ix2 k e :=
    funext fun a => Fin.ext (by
      match a with
      | ⟨0, _⟩ => exact hk
      | ⟨1, _⟩ => rfl)
  rw [el, er]

end Idealize.ShloMosaic.ValueIdx

end
-- ==== Proof.BlockValue.lean ====
/-
  One block of rows, as the kernel computes it.

  At a grid point the kernel holds 2000 consecutive rows of each of the four sparse products, of the real and the
  imaginary features, and the whole weight. It forms the real aggregate of those rows (a difference) and the
  imaginary one (a sum), rounds both and the weight to a narrower float format (on the extended reals that is the
  identity), multiplies each [2000, 128] aggregate by the [128, 128] weight on the matrix unit into a zero
  accumulator, and adds the block of features. Entry (r, e) of the product is the sum over k of
  aggregate[r, k] · weight[k, e]; so each stored block is `projResidual` of the block's rows.
-/
import proofs.«154584_j38809324486714_1_alg».proof.Proof.Gen.KernelIdeal.Skeleton
import proofs.«154584_j38809324486714_1_alg».proof.Proof.LibPlainMatmul
import proofs.«154584_j38809324486714_1_alg».proof.Proof.ProjectResidual
import Idealize.ShloMosaic.Lib.Pipeline.Value

noncomputable section

namespace Cert.KernelIdeal.BlockValue

open Cert.KernelIdeal Cert.KernelIdeal.Gen Cert.SpectralConv
open Idealize.ShloMosaic Idealize.ShloMosaic.ValueIdx

/-- The kernel's matrix product is the plain row-by-column one. -/
theorem dot_plain : dot_S2000x128_S128x128_S2000x128_1_0_0_1_n_n = DotDims.plain 2000 128 128 := rfl

/-- The block stored for the real channel: the difference of the first two blocks, projected, plus the fourth. -/
theorem payReal_eq (v0 v2 : Vec Ideal S2000x128 .f32) (v10 : Vec Ideal S128x128 .f32) (v16 : Vec Ideal S2000x128 .f32) :
    k0_pay2 (F := Ideal) v0 v2 v10 v16 = projResidual (subf (F := Ideal) (φ := .f32) v0 v2) v10 v16 := by
  funext j
  obtain ⟨r, e, rfl⟩ : ∃ (r : Fin 2000) (e : Fin 128), j = ix2 r e := ⟨j 0, j 1, eq_ix2 j⟩
  unfold k0_pay2 k0_pay1
  simp only [shapeCast_self]
  refine (congrArg (· + v16 (ix2 r e)) (matmul_plain_zero_apply _ dot_plain none _ _ r e)).trans ?_
  rfl

/-- The block stored for the imaginary channel: the sum of the first two blocks, projected, plus the fourth. -/
theorem payImag_eq (v5 v7 : Vec Ideal S2000x128 .f32) (v10 : Vec Ideal S128x128 .f32) (v19 : Vec Ideal S2000x128 .f32) :
    k0_pay3 (F := Ideal) v5 v7 v10 v19 = projResidual (addf (F := Ideal) (φ := .f32) v5 v7) v10 v19 := by
  funext j
  obtain ⟨r, e, rfl⟩ : ∃ (r : Fin 2000) (e : Fin 128), j = ix2 r e := ⟨j 0, j 1, eq_ix2 j⟩
  unfold k0_pay3 k0_pay1
  simp only [shapeCast_self]
  refine (congrArg (· + v19 (ix2 r e)) (matmul_plain_zero_apply _ dot_plain none _ _ r e)).trans ?_
  rfl

end Cert.KernelIdeal.BlockValue

end
-- ==== Proof.HostSums.lean ====
/-
  The four sparse products the kernel is launched on are the reference's.

  Before its one launch the kernel's program computes, with the same gather, scaling and scatter-add operations as the
  reference and from the same inputs, the four sparse products Lr·Xr, Li·Xi, Li·Xr and Lr·Xi. Each is therefore the
  very array the reference computes at the corresponding step: the two programs spell one term. The weight and the
  two feature arrays reach the launch untouched.
-/
import proofs.«154584_j38809324486714_1_alg».proof.Proof.Gen.KernelIdeal.Frame
import proofs.«154584_j38809324486714_1_alg».proof.Proof.Gen.ReferenceIdeal.Read
import Idealize.ShloMosaic.Lib.StableHlo.Run

noncomputable section

namespace Cert.KernelIdeal.HostSums

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

set_option maxRecDepth 8192 in
set_option maxHeartbeats 8000000 in
/-- Lr·Xr as launched. -/
theorem V_LrXr (c : Dev nD) : (V m c main_v12 : S50000x128.Idx → EReal) =
    Cert.ReferenceIdeal.Read.val_main_v12 (F := Ideal) (m ((c : Thread nD τ).loc main_arg0)) (m ((c : Thread nD τ).loc main_arg2))
      (m ((c : Thread nD τ).loc main_arg5)) (m ((c : Thread nD τ).loc main_arg6)) := by
  dsimp only [Gen.V, Gen.hostOps0]; after_results_simp <;> rfl

set_option maxRecDepth 8192 in
set_option maxHeartbeats 8000000 in
/-- Li·Xi as launched. -/
theorem V_LiXi (c : Dev nD) : (V m c main_v25 : S50000x128.Idx → EReal) =
    Cert.ReferenceIdeal.Read.val_main_v25 (F := Ideal) (m ((c : Thread nD τ).loc main_arg1)) (m ((c : Thread nD τ).loc main_arg3))
      (m ((c : Thread nD τ).loc main_arg5)) (m ((c : Thread nD τ).loc main_arg6)) := by
  dsimp only [Gen.V, Gen.hostOps0]; after_results_simp <;> rfl

set_option maxRecDepth 8192 in
set_option maxHeartbeats 8000000 in
/-- Li·Xr as launched. -/
theorem V_LiXr (c : Dev nD) : (V m c main_v38 : S50000x128.Idx → EReal) =
    Cert.ReferenceIdeal.Read.val_main_v39 (F := Ideal) (m ((c : Thread nD τ).loc main_arg0)) (m ((c : Thread nD τ).loc main_arg3))
      (m ((c : Thread nD τ).loc main_arg5)) (m ((c : Thread nD τ).loc main_arg6)) := by
  dsimp only [Gen.V, Gen.hostOps0]; after_results_simp <;> rfl

set_option maxRecDepth 8192 in
set_option maxHeartbeats 8000000 in
/-- Lr·Xi as launched. -/
theorem V_LrXi (c : Dev nD) : (V m c main_v51 : S50000x128.Idx → EReal) =
    Cert.ReferenceIdeal.Read.val_main_v52 (F := Ideal) (m ((c : Thread nD τ).loc main_arg1)) (m ((c : Thread nD τ).loc main_arg2))
      (m ((c : Thread nD τ).loc main_arg5)) (m ((c : Thread nD τ).loc main_arg6)) := by
  dsimp only [Gen.V, Gen.hostOps0]; after_results_simp <;> rfl

end Cert.KernelIdeal.HostSums

end
-- ==== Proof.KernelValue.lean ====
/-
  The kernel's two result arrays, as functions of the seven inputs.

  The kernel walks the 50000 rows in 25 blocks of 2000. At block t every row-blocked operand — the four sparse
  products, the two feature arrays, the two results — is at rows 2000·t … 2000·t + 1999 and all 128 columns, and
  the weight is whole. What the kernel writes back for a block is the specification `projResidual` of the block's
  rows (BlockValue), and rows do not interact (`projResidual_rows`), so it is the block of the specification of
  the WHOLE arrays. The 25 blocks cover every row, so each result array ends as the specification of the whole
  arrays the launch found. Those are the reference's sparse products and the untouched inputs (HostSums), which
  makes the two results the reference's own functions `resultReal` and `resultImag` of the inputs.
-/
import proofs.«154584_j38809324486714_1_alg».proof.Proof.Gen.KernelIdeal.Value
import proofs.«154584_j38809324486714_1_alg».proof.Proof.BlockValue
import proofs.«154584_j38809324486714_1_alg».proof.Proof.HostSums
import proofs.«154584_j38809324486714_1_alg».proof.Proof.ReferenceValue

noncomputable section

namespace Cert.KernelIdeal.KernelValue

open Cert.KernelIdeal Cert.KernelIdeal.Gen Cert.KernelIdeal.BlockValue Cert.KernelIdeal.HostSums Cert.SpectralConv
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-! ## Where the blocks sit -/

/-- Decided over the 25 grid points: every row-blocked operand is at the row block of the first result and at column
    block 0, the weight is at block (0, 0), and the row block is at most 24. -/
theorem block_indices : ∀ t : Fin cfg0.N,
    win0_0.index t (0 : Fin 2) = win0_7.index t (0 : Fin 2) ∧ win0_0.index t (1 : Fin 2) = 0
    ∧ win0_1.index t (0 : Fin 2) = win0_7.index t (0 : Fin 2) ∧ win0_1.index t (1 : Fin 2) = 0
    ∧ win0_2.index t (0 : Fin 2) = win0_7.index t (0 : Fin 2) ∧ win0_2.index t (1 : Fin 2) = 0
    ∧ win0_3.index t (0 : Fin 2) = win0_7.index t (0 : Fin 2) ∧ win0_3.index t (1 : Fin 2) = 0
    ∧ win0_4.index t (0 : Fin 2) = win0_7.index t (0 : Fin 2) ∧ win0_4.index t (1 : Fin 2) = 0
    ∧ win0_5.index t (0 : Fin 2) = win0_7.index t (0 : Fin 2) ∧ win0_5.index t (1 : Fin 2) = 0
    ∧ win0_6.index t (0 : Fin 2) = 0 ∧ win0_6.index t (1 : Fin 2) = 0
    ∧ win0_8.index t (0 : Fin 2) = win0_7.index t (0 : Fin 2) ∧ win0_8.index t (1 : Fin 2) = 0
    ∧ win0_7.index t (1 : Fin 2) = 0 ∧ win0_7.index t (0 : Fin 2) ≤ 24 :=
  (by decide +kernel : ∀ t : Fin grid0.N, _)

/-- Every one of the 25 row blocks is some grid point's. -/
theorem block_onto : ∀ q : Fin 25, ∃ t : Fin cfg0.N, win0_7.index t = ![q.val, 0] :=
  (by decide +kernel : ∀ q : Fin 25, ∃ t : Fin grid0.N, win0_7.index t = ![q.val, 0])

/-! ## What a grid point writes back -/

/-- REAL CHANNEL, one block: from blocks of any arrays `A0` (for Lr·Xr), `A1` (for Li·Xi), `A4` (the real features) and
    the weight `A6`, the block the kernel stores is the block of the specification of the whole arrays. -/
theorem blockReal (A0 A1 A4 : S50000x128.Idx → EReal) (A6 : S128x128.Idx → EReal)
    (x2 x3 x5 : Vec Ideal S2000x128 .f32) (t : Fin cfg0.N) :
    out0_7 (((cfg0.win 0).blk t).view.read (Elt Ideal) A0) (((cfg0.win 1).blk t).view.read (Elt Ideal) A1) x2 x3
        (((cfg0.win 4).blk t).view.read (Elt Ideal) A4) x5 (((cfg0.win 6).blk t).view.read (Elt Ideal) A6)
      = ((cfg0.win 7).blk t).view.read (Elt Ideal) (projResidual (subf (F := Ideal) (φ := .f32) A0 A1) A6 A4) := by
  obtain ⟨a0, b0, a1, b1, a2, b2, a3, b3, a4, b4, a5, b5, a6, b6, a8, b8, b7, le7⟩ := block_indices t
  unfold out0_7
  rw [View.canon_unit_zero zero_offsets]
  simp only [View.ld_unit_zero (S := S2000x128) zero_offsets, View.ld_unit_zero (S := S128x128) zero_offsets]
  rw [payReal_eq]
  have e0 : ∀ y : S2000x128.Idx, ((cfg0.win 0).blk t).view.emb y = ((cfg0.win 7).blk t).view.emb y := fun y => by
    funext a; apply Fin.ext
    match a with
    | ⟨0, _⟩ => show win0_0.index t (0 : Fin 2) * 2000 + 1 * (y 0).val = win0_7.index t (0 : Fin 2) * 2000 + 1 * (y 0).val; omega
    | ⟨1, _⟩ => show win0_0.index t (1 : Fin 2) * 128 + 1 * (y 1).val = win0_7.index t (1 : Fin 2) * 128 + 1 * (y 1).val; omega
  have e1 : ∀ y : S2000x128.Idx, ((cfg0.win 1).blk t).view.emb y = ((cfg0.win 7).blk t).view.emb y := fun y => by
    funext a; apply Fin.ext
    match a with
    | ⟨0, _⟩ => show win0_1.index t (0 : Fin 2) * 2000 + 1 * (y 0).val = win0_7.index t (0 : Fin 2) * 2000 + 1 * (y 0).val; omega
    | ⟨1, _⟩ => show win0_1.index t (1 : Fin 2) * 128 + 1 * (y 1).val = win0_7.index t (1 : Fin 2) * 128 + 1 * (y 1).val; omega
  have e4 : ∀ y : S2000x128.Idx, ((cfg0.win 4).blk t).view.emb y = ((cfg0.win 7).blk t).view.emb y := fun y => by
    funext a; apply Fin.ext
    match a with
    | ⟨0, _⟩ => show win0_4.index t (0 : Fin 2) * 2000 + 1 * (y 0).val = win0_7.index t (0 : Fin 2) * 2000 + 1 * (y 0).val; omega
    | ⟨1, _⟩ => show win0_4.index t (1 : Fin 2) * 128 + 1 * (y 1).val = win0_7.index t (1 : Fin 2) * 128 + 1 * (y 1).val; omega
  have e6 : ∀ y : S128x128.Idx, ((cfg0.win 6).blk t).view.emb y = y := fun y => by
    funext a; apply Fin.ext
    match a with
    | ⟨0, _⟩ => show win0_6.index t (0 : Fin 2) * 128 + 1 * (y 0).val = (y 0).val; omega
    | ⟨1, _⟩ => show win0_6.index t (1 : Fin 2) * 128 + 1 * (y 1).val = (y 1).val; omega
  have hemb : ∀ (r : Fin 2000) (e : Fin 128), ((cfg0.win 7).blk t).view.emb (ix2 r e)
      = ix2 (((cfg0.win 7).blk t).view.emb (ix2 r (0 : Fin 128)) 0) e := fun r e => by
    funext a; apply Fin.ext
    match a with
    | ⟨0, _⟩ => show win0_7.index t (0 : Fin 2) * 2000 + 1 * r.val = win0_7.index t (0 : Fin 2) * 2000 + 1 * r.val; rfl
    | ⟨1, _⟩ => show win0_7.index t (1 : Fin 2) * 128 + 1 * e.val = e.val; omega
  have r0 : ((cfg0.win 0).blk t).view.read (Elt Ideal) A0 = fun y => A0 (((cfg0.win 7).blk t).view.emb y) :=
    funext fun y => congrArg A0 (e0 y)
  have r1 : ((cfg0.win 1).blk t).view.read (Elt Ideal) A1 = fun y => A1 (((cfg0.win 7).blk t).view.emb y) :=
    funext fun y => congrArg A1 (e1 y)
  have r4 : ((cfg0.win 4).blk t).view.read (Elt Ideal) A4 = fun y => A4 (((cfg0.win 7).blk t).view.emb y) :=
    funext fun y => congrArg A4 (e4 y)
  have r6 : ((cfg0.win 6).blk t).view.read (Elt Ideal) A6 = A6 :=
    funext fun y => congrArg A6 (e6 y)
  rw [r0, r1, r4, r6]
  funext j
  exact projResidual_rows (fun r => ((cfg0.win 7).blk t).view.emb (ix2 r (0 : Fin 128)) 0) (((cfg0.win 7).blk t).view.emb) hemb
    (subf (F := Ideal) (φ := .f32) A0 A1) A6 A4 j

/-- IMAGINARY CHANNEL, one block: from blocks of `A2` (for Li·Xr), `A3` (for Lr·Xi), `A5` (the imaginary features) and
    the weight `A6`. -/
theorem blockImag (A2 A3 A5 : S50000x128.Idx → EReal) (A6 : S128x128.Idx → EReal)
    (x0 x1 x4 : Vec Ideal S2000x128 .f32) (t : Fin cfg0.N) :
    out0_8 x0 x1 (((cfg0.win 2).blk t).view.read (Elt Ideal) A2) (((cfg0.win 3).blk t).view.read (Elt Ideal) A3) x4
        (((cfg0.win 5).blk t).view.read (Elt Ideal) A5) (((cfg0.win 6).blk t).view.read (Elt Ideal) A6)
      = ((cfg0.win 8).blk t).view.read (Elt Ideal) (projResidual (addf (F := Ideal) (φ := .f32) A2 A3) A6 A5) := by
  obtain ⟨a0, b0, a1, b1, a2, b2, a3, b3, a4, b4, a5, b5, a6, b6, a8, b8, b7, le7⟩ := block_indices t
  unfold out0_8
  rw [View.canon_unit_zero zero_offsets]
  simp only [View.ld_unit_zero (S := S2000x128) zero_offsets, View.ld_unit_zero (S := S128x128) zero_offsets]
  rw [payImag_eq]
  have e2 : ∀ y : S2000x128.Idx, ((cfg0.win 2).blk t).view.emb y = ((cfg0.win 8).blk t).view.emb y := fun y => by
    funext a; apply Fin.ext
    match a with
    | ⟨0, _⟩ => show win0_2.index t (0 : Fin 2) * 2000 + 1 * (y 0).val = win0_8.index t (0 : Fin 2) * 2000 + 1 * (y 0).val; omega
    | ⟨1, _⟩ => show win0_2.index t (1 : Fin 2) * 128 + 1 * (y 1).val = win0_8.index t (1 : Fin 2) * 128 + 1 * (y 1).val; omega
  have e3 : ∀ y : S2000x128.Idx, ((cfg0.win 3).blk t).view.emb y = ((cfg0.win 8).blk t).view.emb y := fun y => by
    funext a; apply Fin.ext
    match a with
    | ⟨0, _⟩ => show win0_3.index t (0 : Fin 2) * 2000 + 1 * (y 0).val = win0_8.index t (0 : Fin 2) * 2000 + 1 * (y 0).val; omega
    | ⟨1, _⟩ => show win0_3.index t (1 : Fin 2) * 128 + 1 * (y 1).val = win0_8.index t (1 : Fin 2) * 128 + 1 * (y 1).val; omega
  have e5 : ∀ y : S2000x128.Idx, ((cfg0.win 5).blk t).view.emb y = ((cfg0.win 8).blk t).view.emb y := fun y => by
    funext a; apply Fin.ext
    match a with
    | ⟨0, _⟩ => show win0_5.index t (0 : Fin 2) * 2000 + 1 * (y 0).val = win0_8.index t (0 : Fin 2) * 2000 + 1 * (y 0).val; omega
    | ⟨1, _⟩ => show win0_5.index t (1 : Fin 2) * 128 + 1 * (y 1).val = win0_8.index t (1 : Fin 2) * 128 + 1 * (y 1).val; omega
  have e6 : ∀ y : S128x128.Idx, ((cfg0.win 6).blk t).view.emb y = y := fun y => by
    funext a; apply Fin.ext
    match a with
    | ⟨0, _⟩ => show win0_6.index t (0 : Fin 2) * 128 + 1 * (y 0).val = (y 0).val; omega
    | ⟨1, _⟩ => show win0_6.index t (1 : Fin 2) * 128 + 1 * (y 1).val = (y 1).val; omega
  have hemb : ∀ (r : Fin 2000) (e : Fin 128), ((cfg0.win 8).blk t).view.emb (ix2 r e)
      = ix2 (((cfg0.win 8).blk t).view.emb (ix2 r (0 : Fin 128)) 0) e := fun r e => by
    funext a; apply Fin.ext
    match a with
    | ⟨0, _⟩ => show win0_8.index t (0 : Fin 2) * 2000 + 1 * r.val = win0_8.index t (0 : Fin 2) * 2000 + 1 * r.val; rfl
    | ⟨1, _⟩ => show win0_8.index t (1 : Fin 2) * 128 + 1 * e.val = e.val; omega
  have r2 : ((cfg0.win 2).blk t).view.read (Elt Ideal) A2 = fun y => A2 (((cfg0.win 8).blk t).view.emb y) :=
    funext fun y => congrArg A2 (e2 y)
  have r3 : ((cfg0.win 3).blk t).view.read (Elt Ideal) A3 = fun y => A3 (((cfg0.win 8).blk t).view.emb y) :=
    funext fun y => congrArg A3 (e3 y)
  have r5 : ((cfg0.win 5).blk t).view.read (Elt Ideal) A5 = fun y => A5 (((cfg0.win 8).blk t).view.emb y) :=
    funext fun y => congrArg A5 (e5 y)
  have r6 : ((cfg0.win 6).blk t).view.read (Elt Ideal) A6 = A6 :=
    funext fun y => congrArg A6 (e6 y)
  rw [r2, r3, r5, r6]
  funext j
  exact projResidual_rows (fun r => ((cfg0.win 8).blk t).view.emb (ix2 r (0 : Fin 128)) 0) (((cfg0.win 8).blk t).view.emb) hemb
    (addf (F := Ideal) (φ := .f32) A2 A3) A6 A5 j

/-- What grid point `t` writes back to the first result: block `t` of the real channel of the arrays the launch found. -/
theorem flushedReal_eq (c : Dev nD) (t : Fin cfg0.N) :
    (dats m 0 c).flushed 7 t = ((cfg0.win 7).blk t).view.read (Elt Ideal)
      (projResidual (subf (F := Ideal) (φ := .f32) (V m c main_v12) (V m c main_v25)) (V m c main_arg4) (V m c main_arg0)) := by
  rw [Cert.KernelIdeal.Value.flushed7]
  unfold iblk
  exact blockReal (V m c main_v12) (V m c main_v25) (V m c main_arg0) (V m c main_arg4) _ _ _ t

/-- What grid point `t` writes back to the second result: block `t` of the imaginary channel. -/
theorem flushedImag_eq (c : Dev nD) (t : Fin cfg0.N) :
    (dats m 0 c).flushed 8 t = ((cfg0.win 8).blk t).view.read (Elt Ideal)
      (projResidual (addf (F := Ideal) (φ := .f32) (V m c main_v38) (V m c main_v51)) (V m c main_arg4) (V m c main_arg1)) := by
  rw [Cert.KernelIdeal.Value.flushed8]
  unfold iblk
  exact blockImag (V m c main_v38) (V m c main_v51) (V m c main_arg1) (V m c main_arg4) _ _ _ t

/-! ## The blocks cover the arrays -/

/-- An entry is in block `t` of the first result iff each coordinate is in the block's range on its axis. -/
theorem mem_blkReal (t : Fin cfg0.N) (i : S50000x128.Idx) :
    i ∈ ((cfg0.win 7).blk t).view.set ↔ ∀ a : Fin 2, win0_7.index t a * S2000x128.size a ≤ (i a).val ∧ (i a).val < win0_7.index t a * S2000x128.size a + S2000x128.size a := by
  show i ∈ ((View.whole main_v52_0).slice (win0_7.rect t)).set ↔ _
  rw [View.set_slice_whole, Rect.mem_set_unit]
  exact Iff.rfl

theorem mem_blkImag (t : Fin cfg0.N) (i : S50000x128.Idx) :
    i ∈ ((cfg0.win 8).blk t).view.set ↔ ∀ a : Fin 2, win0_8.index t a * S2000x128.size a ≤ (i a).val ∧ (i a).val < win0_8.index t a * S2000x128.size a + S2000x128.size a := by
  show i ∈ ((View.whole main_v52_1).slice (win0_8.rect t)).set ↔ _
  rw [View.set_slice_whole, Rect.mem_set_unit]
  exact Iff.rfl

/-- Row r lies in row block r / 2000: every entry of the first result is in some grid point's block. -/
theorem coverReal (i : S50000x128.Idx) : ∃ t : Fin cfg0.N, (cfg0.win 7).flush t = true ∧ i ∈ ((cfg0.win 7).blk t).view.set := by
  have hi0 : (i 0).val < 50000 := (i 0).isLt
  have hi1 : (i 1).val < 128 := (i 1).isLt
  obtain ⟨t, ht⟩ := block_onto ⟨(i 0).val / 2000, by omega⟩
  have q0 : win0_7.index t (0 : Fin 2) = (i 0).val / 2000 := congrFun ht 0
  have q1 : win0_7.index t (1 : Fin 2) = 0 := congrFun ht 1
  refine ⟨t, flush0_7 t, ?_⟩
  rw [mem_blkReal]
  intro a
  match a with
  | ⟨0, _⟩ => show win0_7.index t (0 : Fin 2) * 2000 ≤ (i 0).val ∧ (i 0).val < win0_7.index t (0 : Fin 2) * 2000 + 2000; omega
  | ⟨1, _⟩ => show win0_7.index t (1 : Fin 2) * 128 ≤ (i 1).val ∧ (i 1).val < win0_7.index t (1 : Fin 2) * 128 + 128; omega

/-- The same for the second result, whose blocks sit where the first result's do. -/
theorem coverImag (i : S50000x128.Idx) : ∃ t : Fin cfg0.N, (cfg0.win 8).flush t = true ∧ i ∈ ((cfg0.win 8).blk t).view.set := by
  have hi0 : (i 0).val < 50000 := (i 0).isLt
  have hi1 : (i 1).val < 128 := (i 1).isLt
  obtain ⟨t, ht⟩ := block_onto ⟨(i 0).val / 2000, by omega⟩
  have q0 : win0_7.index t (0 : Fin 2) = (i 0).val / 2000 := congrFun ht 0
  have q1 : win0_7.index t (1 : Fin 2) = 0 := congrFun ht 1
  obtain ⟨a0, b0, a1, b1, a2, b2, a3, b3, a4, b4, a5, b5, a6, b6, a8, b8, b7, le7⟩ := block_indices t
  refine ⟨t, flush0_8 t, ?_⟩
  rw [mem_blkImag]
  intro a
  match a with
  | ⟨0, _⟩ => show win0_8.index t (0 : Fin 2) * 2000 ≤ (i 0).val ∧ (i 0).val < win0_8.index t (0 : Fin 2) * 2000 + 2000; omega
  | ⟨1, _⟩ => show win0_8.index t (1 : Fin 2) * 128 ≤ (i 1).val ∧ (i 1).val < win0_8.index t (1 : Fin 2) * 128 + 128; omega

/-! ## The arrays after the run -/

/-- The first result ends as the real channel of the arrays the launch found. -/
theorem finalReal (c : Dev nD) : (dats m 0 c).arrAt 7 cfg0.N
    = projResidual (subf (F := Ideal) (φ := .f32) (V m c main_v12) (V m c main_v25)) (V m c main_arg4) (V m c main_arg0) :=
  (dats m 0 c).arrAt_eq_of_cover 7 _ (fun t _ => flushedReal_eq m c t) coverReal

/-- The second result ends as the imaginary channel of the arrays the launch found. -/
theorem finalImag (c : Dev nD) : (dats m 0 c).arrAt 8 cfg0.N
    = projResidual (addf (F := Ideal) (φ := .f32) (V m c main_v38) (V m c main_v51)) (V m c main_arg4) (V m c main_arg1) :=
  (dats m 0 c).arrAt_eq_of_cover 8 _ (fun t _ => flushedImag_eq m c t) coverImag

/-- The first result is the reference's real channel of the seven inputs. -/
theorem finalReal_inputs (c : Dev nD) : (dats m 0 c).arrAt 7 cfg0.N
    = Cert.ReferenceIdeal.RefValue.resultReal (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) := by
  rw [finalReal, V_LrXr, V_LiXi, V_main_arg4, V_main_arg0]
  rfl

/-- The second result is the reference's imaginary channel of the seven inputs. -/
theorem finalImag_inputs (c : Dev nD) : (dats m 0 c).arrAt 8 cfg0.N
    = Cert.ReferenceIdeal.RefValue.resultImag (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) := by
  rw [finalImag, V_LiXr, V_LrXi, V_main_arg4, V_main_arg1]
  rfl

/-! ## The run -/

/-- Every weakly fair execution of the kernel's program ends with the two results at the reference's functions of
    the inputs, and the inputs unchanged. -/
theorem run : θ_run defs (onTc (τ := τ) (main (F := Ideal))) ⟨m, fun _ => 0, ρ⟩ fun r => ∀ c : Dev nD,
      r.2.mem ((c : Thread nD τ).loc main_v52_0) = Cert.ReferenceIdeal.RefValue.resultReal (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6))
      ∧ r.2.mem ((c : Thread nD τ).loc main_v52_1) = Cert.ReferenceIdeal.RefValue.resultImag (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (finalReal_inputs m c), (h c).2.1.trans (finalImag_inputs m c), (h c).2.2⟩)
    (Cert.KernelIdeal.Value.run_blocks m ρ)

end Cert.KernelIdeal.KernelValue

end
-- ==== Proof.lean ====
/-
  A complex spectral graph convolution: the kernel against its reference, on the extended reals.

  THE LAYER. With sparse complex Laplacian L = Lr + i·Li (given by edge values and row / column indices) and complex
  node features X = Xr + i·Xi of shape [50000, 128], the layer aggregates
      real aggregate  =  Lr·Xr − Li·Xi,        imaginary aggregate  =  Li·Xr + Lr·Xi,
  projects each aggregate through one real [128, 128] weight W, and adds the input features back:
      result_real  =  (real aggregate)·W + Xr,      result_imag  =  (imaginary aggregate)·W + Xi.

  THE TWO PROGRAMS. Both form the four sparse products Lr·Xr, Li·Xi, Li·Xr, Lr·Xi by the same gather, scaling and
  scatter-add of the same inputs. The reference then combines them, multiplies by W and adds the features as
  whole-array operations. The kernel does those three steps 2000 rows at a time, rounding the aggregates and the
  weight to a narrower float format before the product; on the extended reals that rounding is the identity.

  WHY THEY AGREE. Entry (r, e) of either result is (∑ k, aggregate[r, k] · W[k, e]) + features[r, e]
  (ProjectResidual). It reads row r only, so computing it block of rows by block of rows changes nothing, and the
  25 blocks cover all rows (KernelValue). The sparse products are the same arrays in both programs (HostSums), so
  nothing has to be known about them. No law beyond reading the two matrix products as sums is used: in particular
  no distributivity and no cancellation, so the inputs' finiteness is never opened.

  The idealized kernel is the kernel's own text read on the extended reals (no operation was rewritten), so that
  conjunct is trivial; the three frames are the programs' runs with the results dropped.
-/
import proofs.«154584_j38809324486714_1_alg».proof.Defs
import proofs.«154584_j38809324486714_1_alg».proof.Proof.Gen.Kernel
import proofs.«154584_j38809324486714_1_alg».proof.Proof.Gen.Kernel.Skeleton
import proofs.«154584_j38809324486714_1_alg».proof.Proof.Gen.Kernel.Launch
import proofs.«154584_j38809324486714_1_alg».proof.Proof.Gen.Kernel.Points
import proofs.«154584_j38809324486714_1_alg».proof.Proof.Gen.Kernel.Frame
import proofs.«154584_j38809324486714_1_alg».proof.Proof.Gen.KernelIdeal
import proofs.«154584_j38809324486714_1_alg».proof.Proof.Gen.KernelIdeal.Skeleton
import proofs.«154584_j38809324486714_1_alg».proof.Proof.Gen.KernelIdeal.Launch
import proofs.«154584_j38809324486714_1_alg».proof.Proof.Gen.KernelIdeal.Points
import proofs.«154584_j38809324486714_1_alg».proof.Proof.Gen.KernelIdeal.Frame
import proofs.«154584_j38809324486714_1_alg».proof.Proof.Gen.KernelIdeal.Value
import proofs.«154584_j38809324486714_1_alg».proof.Proof.Gen.ReferenceIdeal
import proofs.«154584_j38809324486714_1_alg».proof.Proof.Gen.ReferenceIdeal.Run
import proofs.«154584_j38809324486714_1_alg».proof.Proof.Gen.ReferenceIdeal.Read
import proofs.«154584_j38809324486714_1_alg».proof.Proof.Gen.Pre_finite_inputs
import proofs.«154584_j38809324486714_1_alg».proof.Proof.ReferenceValue
import proofs.«154584_j38809324486714_1_alg».proof.Proof.KernelValue
import Idealize.ShloMosaic.Adequacy
import Idealize.ShloMosaic.Init

noncomputable section

namespace Cert.Proof

open Idealize.ShloMosaic Idealize.SL.Sem

/-- The kernel as printed runs and leaves its inputs unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- No operation of the kernel was rewritten to read it on the extended reals. -/
theorem preserves : Cert.preserves_Kernel_KernelIdeal := trivial

/-- From memories that agree on the seven inputs, both programs end with the two results at the same functions of the
    inputs: the kernel by its run read block by block, the reference by its run read at an entry. -/
theorem algebraic : Cert.algebraic_KernelIdeal_ReferenceIdeal := by
  intro m ρ m' ρ' _ hagree
  refine ⟨_, _, Cert.KernelIdeal.KernelValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2.1, (hagree c).2.2.1, (hagree c).2.2.2.1, (hagree c).2.2.2.2.1, (hagree c).2.2.2.2.2.1,
      (hagree c).2.2.2.2.2.2]
    exact (Cert.ReferenceIdeal.Read.val_main_v56_eq _ _ _ _ _ _ _).trans (Cert.ReferenceIdeal.RefValue.real_eq _ _ _ _ _ _ _)
  · rw [(hagree c).1, (hagree c).2.1, (hagree c).2.2.1, (hagree c).2.2.2.1, (hagree c).2.2.2.2.1, (hagree c).2.2.2.2.2.1,
      (hagree c).2.2.2.2.2.2]
    exact (Cert.ReferenceIdeal.Read.val_main_v57_eq _ _ _ _ _ _ _).trans (Cert.ReferenceIdeal.RefValue.imag_eq _ _ _ _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
